-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 80
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S50000x128, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x128, .f32⟩
  | .hbm, ⟨52, _⟩ => ⟨S850000x1, .f32⟩
  | .hbm, ⟨53, _⟩ => ⟨S850000x128, .f32⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .i32⟩
  | .hbm, ⟨63, _⟩ => ⟨S850000, .i32⟩
  | .hbm, ⟨64, _⟩ => ⟨S850000, .i1⟩
  | .hbm, ⟨65, _⟩ => ⟨S_, .i32⟩
  | .hbm, ⟨66, _⟩ => ⟨S850000, .i32⟩
  | .hbm, ⟨67, _⟩ => ⟨S850000, .i32⟩
  | .hbm, ⟨68, _⟩ => ⟨S850000, .i32⟩
  | .hbm, ⟨69, _⟩ => ⟨S850000x1, .i32⟩
  | .hbm, ⟨70, _⟩ => ⟨S850000x128, .f32⟩
  | .hbm, ⟨71, _⟩ => ⟨S850000x1, .f32⟩
  | .hbm, ⟨72, _⟩ => ⟨S850000x128, .f32⟩
  | .hbm, ⟨73, _⟩ => ⟨S850000x128, .f32⟩
  | .hbm, ⟨74, _⟩ => ⟨S_, .f32⟩
  | .hbm, ⟨75, _⟩ => ⟨S50000x128, .f32⟩
  | .hbm, ⟨76, _⟩ => ⟨S850000x1, .i32⟩
  | .hbm, ⟨77, _⟩ => ⟨S50000x128, .f32⟩
  | .hbm, ⟨78, _⟩ => ⟨S1x128, .f32⟩
  | .hbm, ⟨79, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 88
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S50000x128, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x128, .f32⟩
  | .hbm, ⟨52, _⟩ => ⟨S850000x1, .f32⟩
  | .hbm, ⟨53, _⟩ => ⟨S850000x128, .f32⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x128, .f32⟩
  | .hbm, ⟨75, _⟩ => ⟨S850000x1, .f32⟩
  | .hbm, ⟨76, _⟩ => ⟨S850000x128, .f32⟩
  | .hbm, ⟨77, _⟩ => ⟨S850000x128, .f32⟩
  | .hbm, ⟨78, _⟩ => ⟨S_, .f32⟩
  | .hbm, ⟨79, _⟩ => ⟨S50000x128, .f32⟩
  | .hbm, ⟨80, _⟩ => ⟨S850000x1, .i32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_call1_cst : Ref sig .tc := ⟨.hbm, 85, rfl⟩
abbrev main_call1_v0 : Ref sig .tc := ⟨.hbm, 86, rfl⟩
abbrev main_v64 : Ref sig .tc := ⟨.hbm, 87, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.GcnSpec.lean ====
/-
  The function both programs compute: two graph-convolution layers over one fixed edge list.

  From the 2 × 800000 integer array of edges the 850000 sources and destinations are the two rows, each followed by
  the 50000 self-loops 0 … 49999. The degree of a node counts the edges arriving at it, the weight of an edge is
  rsqrt(max(deg, 1)) read at its source times the same read at its destination (an index below zero is first
  moved up by 50000, the usual reading of a negative position). One layer maps node features h : 50000 × 128 to

      max( scatter-add over destinations of ( (h · W) gathered at the sources, each row scaled by its edge's weight ) + b , 0 )

  and the result is the second layer of the first. Everything here is the reference program's own spelling of
  these operations, cut into named pieces, so that it unfolds to the reference's result term; no operation is
  opened.
-/
import proofs.«134097_j48936857370856_1_alg».proof.Proof.Gen.ReferenceIdeal

noncomputable section

namespace Cert.GcnSpec

open Idealize.ShloMosaic Cert.ReferenceIdeal Cert.ReferenceIdeal.Gen

variable {F : FTy → Type} [FloatOps F]

/-- The edges' sources followed by the self-loops. -/
def srcOf (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The edges' destinations followed by the self-loops. -/
def dstOf (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A position below zero is read from the end: 50000 is added to it. -/
def wrapIdx (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- rsqrt(max(deg, 1)) per node, deg the number of edges (self-loops included) arriving at the node. -/
def dinvOf (ei : (⟨S2x800000, .i32⟩ : BufTy).Contents (Elt F)) : (⟨S50000, .f32⟩ : BufTy).Contents (Elt F) :=
  Host.rsqrt (maximumf (Host.scatterAdd scatter_S50000_S850000x1_S850000_n_0_0_1 (broadcastInDim S50000 ![] bcast_S_S50000 (constant S_ .f32 0x00000000#32)) (broadcastInDim S850000x1 ![0] bcast_S850000_S850000x1_0 (dstOf ei)) (broadcastInDim S850000 ![] bcast_S_S850000 (constant S_ .f32 0x3F800000#32))) (broadcastInDim S50000 ![] bcast_S_S50000 (constant S_ .f32 0x3F800000#32)))

/-- The weight of each edge: the node factor at its source times the node factor at its destination. -/
def normOf (ei : (⟨S2x800000, .i32⟩ : BufTy).Contents (Elt F)) : (⟨S850000, .f32⟩ : BufTy).Contents (Elt F) :=
  mulf (Host.gather gather_S50000_S850000x1_S850000_n_0_n_n_0_1_1 (dinvOf ei) (broadcastInDim S850000x1 ![0] bcast_S850000_S850000x1_0 (wrapIdx (srcOf ei)))) (Host.gather gather_S50000_S850000x1_S850000_n_0_n_n_0_1_1 (dinvOf ei) (broadcastInDim S850000x1 ![0] bcast_S850000_S850000x1_0 (wrapIdx (dstOf ei))))

/-- Message passing over given index and weight arrays: the rows of `h` gathered at the sources `src`, each scaled by
    its edge's weight `nrm`, summed into the destinations `dst`. -/
def aggWith (h : (⟨S50000x128, .f32⟩ : BufTy).Contents (Elt F)) (src dst : (⟨S850000, .i32⟩ : BufTy).Contents (Elt F)) (nrm : (⟨S850000, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 dst) (mulf (Host.gather gather_S50000x128_S850000x1_S850000x128_1_0_n_n_0_1_1128 h (broadcastInDim S850000x1 ![0] bcast_S850000_S850000x1_0 (wrapIdx src))) (broadcastInDim S850000x128 ![0, 1] bcast_S850000x1_S850000x128_0_1 (broadcastInDim S850000x1 ![0] bcast_S850000_S850000x1_0 nrm)))

/-- Message passing over the edge list `ei`. -/
def aggOf (h : (⟨S50000x128, .f32⟩ : BufTy).Contents (Elt F)) (ei : (⟨S2x800000, .i32⟩ : BufTy).Contents (Elt F)) : (⟨S50000x128, .f32⟩ : BufTy).Contents (Elt F) :=
  aggWith h (srcOf ei) (dstOf ei) (normOf ei)

/-- Bias and rectifier: max(s + b, 0), the bias row repeated down the 50000 rows. -/
def biasRelu (s : (⟨S50000x128, .f32⟩ : BufTy).Contents (Elt F)) (b : (⟨S128, .f32⟩ : BufTy).Contents (Elt F)) : (⟨S50000x128, .f32⟩ : BufTy).Contents (Elt F) :=
  maximumf (addf s (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- The dense product of the node features with a weight matrix. -/
def dense (x : (⟨S50000x128, .f32⟩ : BufTy).Contents (Elt F)) (W : (⟨S128x128, .f32⟩ : BufTy).Contents (Elt F)) : (⟨S50000x128, .f32⟩ : BufTy).Contents (Elt F) :=
  Host.dotGeneral dot_S50000x128_S128x128_S50000x128_1_0_0_1_n_n none x W

/-- One layer: product, message passing, bias, rectifier. -/
def layerOf (x : (⟨S50000x128, .f32⟩ : BufTy).Contents (Elt F)) (W : (⟨S128x128, .f32⟩ : BufTy).Contents (Elt F)) (b : (⟨S128, .f32⟩ : BufTy).Contents (Elt F)) (ei : (⟨S2x800000, .i32⟩ : BufTy).Contents (Elt F)) : (⟨S50000x128, .f32⟩ : BufTy).Contents (Elt F) :=
  biasRelu (aggOf (dense x W) ei) b

/-- The two layers. -/
def gcn2 (x : (⟨S50000x128, .f32⟩ : BufTy).Contents (Elt F)) (ei : (⟨S2x800000, .i32⟩ : BufTy).Contents (Elt F)) (W1 : (⟨S128x128, .f32⟩ : BufTy).Contents (Elt F)) (b1 : (⟨S128, .f32⟩ : BufTy).Contents (Elt F)) (W2 : (⟨S128x128, .f32⟩ : BufTy).Contents (Elt F)) (b2 : (⟨S128, .f32⟩ : BufTy).Contents (Elt F)) : (⟨S50000x128, .f32⟩ : BufTy).Contents (Elt F) :=
  layerOf (layerOf x W1 b1 ei) W2 b2 ei

end Cert.GcnSpec

end
-- ==== Proof.KernelRun.lean ====
/-
  The idealized kernel's run, with its result named.

  @main is seven segments: a stretch of host operations, a kernel region, a second stretch, two kernel regions, a third
  stretch and a last kernel region. The generated frame follows every unscoped buffer's contents from the launch
  through the seven boundaries (its fold `W0 … W7`) and reads the final state against the last one. Its own
  conclusion keeps only the six argument arrays. Read at the result buffer as well, the same run says: every weakly
  fair execution terminates, nothing faulting, with the result array at the last boundary's contents `W7` of the
  result buffer and the arguments as launched.
-/
import proofs.«134097_j48936857370856_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last boundary's
    contents of the result buffer, and the six argument arrays end as launched. -/
theorem run : θ_run defs (onTc (τ := τ) (main (F := F))) ⟨m, fun _ => 0, ρ⟩ (fun r => ∀ c : Dev nD,
      r.2.mem ((c.tc : Thread nD τ).loc main_v60) = W7 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v60 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Named

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.RegionDense0.lean ====
/-
  The first product region as one whole array.

  The region's grid has ten points; at point t the kernel body loads rows 5000·t … 5000·t + 4999 of the node features
  (all 128 columns) and the whole 128 × 128 weight matrix, multiplies them into a zero accumulator, and the result is
  written back to the same rows of the output. At the ideal values the entry (r, q) of a block is
  ∑ k, x(5000·t + r, k) · W(k, q), which is the entry (5000·t + r, q) of the product of the whole arrays; the ten
  blocks tile the 50000 rows, so the output array ends as that product.
-/
import proofs.«134097_j48936857370856_1_alg».proof.Proof.Gen.KernelIdeal.Frame
import proofs.«134097_j48936857370856_1_alg».proof.Proof.GcnSpec
import proofs.«134097_j48936857370856_1_alg».proof.Proof.LibMatmulPlain
import Idealize.ShloMosaic.Lib.Pipeline.Value
import Idealize.ShloMosaic.Lib.ValueIdx
import Idealize.ShloMosaic.Lib.StackMember

set_option maxRecDepth 16384

noncomputable section

namespace Cert.KernelIdeal.Dense0

open Idealize.ShloMosaic Idealize.ShloMosaic.TcCoe Idealize.ShloMosaic.ValueIdx Idealize.SL.Sem
open Idealize.ShloMosaic.Pipeline (Dat)
open Cert.KernelIdeal Cert.KernelIdeal.Gen

/-- The product of the whole arrays at (p, q): the sum over the contracted coordinate. -/
theorem dense_apply (X : FVec Ideal S50000x128 .f32) (W : FVec Ideal S128x128 .f32) (p : Fin 50000) (q : Fin 128) :
    Cert.GcnSpec.dense (F := Ideal) X W (ix2 p q) = ∑ k : Fin 128, X (ix2 p k) * W (ix2 k q) :=
  StackMember.dotGeneral_plain_apply none X W p q

/-- The body's one stored value at (r, q): the rounding of the operands to the narrower format is the identity on
    the ideal values, and the product into the zero accumulator is the plain sum. -/
theorem pay_apply (x0 : FVec Ideal S5000x128 .f32) (x1 : FVec Ideal S128x128 .f32) (r : Fin 5000) (q : Fin 128) :
    k0_pay1 (F := Ideal) x0 x1 (ix2 r q) = ∑ k : Fin 128, x0 (ix2 r k) * x1 (ix2 k q) := by
  unfold k0_pay1
  exact Cert.LibMatmulPlain.matmul_plain_zero_apply none (truncf .bf16 x0 bitsLt_bf16_f32) (truncf .bf16 x1 bitsLt_bf16_f32) r q

theorem hz : (![0, 0] : Fin 2 → Nat) = fun _ => 0 := funext fun a => by fin_cases a <;> rfl

/-- The printed index maps over the ten grid points: the feature window and the output window sit at block row t,
    the weight window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

variable (V : (c : Dev nD) → (b : Ref sig .tc) → Buf (Elt Ideal) ((c : Thread nD τ).loc b))

/-- What point t writes back is block t of the product of the arrays the region finds. -/
theorem flushed_eq (c : Dev nD) (t : Fin cfg0.N) :
    (dat0 V c).flushed 2 t = ((cfg0.win 2).blk t).view.read (Elt Ideal) (Cert.GcnSpec.dense (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e00, e01, e10, e11, e20, e21, ht⟩ := idx_facts t
  funext j
  obtain ⟨r, q, rfl⟩ : ∃ (r : Fin 5000) (q : Fin 128), j = ix2 r q := ⟨j 0, j 1, eq_ix2 j⟩
  have hr : r.val < 5000 := r.isLt
  have e2 : ((cfg0.win 2).blk t).view.emb (ix2 r q) = ix2 (⟨t.val * 5000 + r.val, by omega⟩ : Fin 50000) q := by
    funext a; apply Fin.ext
    match a with
    | ⟨0, _⟩ => show win0_2.index t (0 : Fin 2) * 5000 + 1 * r.val = t.val * 5000 + r.val; omega
    | ⟨1, _⟩ => show win0_2.index t (1 : Fin 2) * 128 + 1 * q.val = q.val; omega
  show k0_pay1 (iblk0 V c 0 t) (iblk0 V c 1 t) (ix2 r q)
    = Cert.GcnSpec.dense (F := Ideal) (V c main_arg0) (V c main_arg2) (((cfg0.win 2).blk t).view.emb (ix2 r q))
  rw [e2, dense_apply]
  refine (pay_apply (iblk0 V c 0 t) (iblk0 V c 1 t) r q).trans ?_
  refine Finset.sum_congr rfl fun k _ => ?_
  have e0 : ((cfg0.win 0).blk t).view.emb (ix2 r k) = ix2 (⟨t.val * 5000 + r.val, by omega⟩ : Fin 50000) k := by
    funext a; apply Fin.ext
    match a with
    | ⟨0, _⟩ => show win0_0.index t (0 : Fin 2) * 5000 + 1 * r.val = t.val * 5000 + r.val; omega
    | ⟨1, _⟩ => show win0_0.index t (1 : Fin 2) * 128 + 1 * k.val = k.val; omega
  have e1 : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have h0 : iblk0 V c 0 t (ix2 r k) = V c main_arg0 (ix2 (⟨t.val * 5000 + r.val, by omega⟩ : Fin 50000) k) :=
    congrArg (V c main_arg0) e0
  have h1 : iblk0 V c 1 t (ix2 k q) = V c main_arg2 (ix2 k q) := congrArg (V c main_arg2) e1
  rw [h0, h1]

/-- An index of the output array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Every row of the output is in the block of the point numbered by the row divided by 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 := ⟨⟨(i 0).val / 5000, by show (i 0).val / 5000 < grid0.N; omega⟩, rfl⟩
  obtain ⟨-, -, -, -, e20, e21, -⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The region's output array after the region: the product of the two arrays the region finds. -/
theorem final (c : Dev nD) :
    (dat0 V c).arrAt 2 cfg0.N = Cert.GcnSpec.dense (F := Ideal) (V c main_arg0) (V c main_arg2) :=
  (dat0 V c).arrAt_eq_of_cover 2 _ (fun t _ => flushed_eq V c t) cover

end Cert.KernelIdeal.Dense0

end
-- ==== Proof.RegionBias1.lean ====
/-
  The first bias-and-rectifier region as one whole array.

  The region's grid has ten points; at point t the kernel body loads rows 5000·t … 5000·t + 4999 of the aggregated
  features and the one bias row, adds the bias row to every loaded row, takes the maximum with zero, and the result is
  written back to the same rows of the output. Entry (r, q) of a block is max(s(5000·t + r, q) + b(q), 0), the entry
  (5000·t + r, q) of the same operation on the whole arrays; the ten blocks tile the 50000 rows.
-/
import proofs.«134097_j48936857370856_1_alg».proof.Proof.Gen.KernelIdeal.Frame
import proofs.«134097_j48936857370856_1_alg».proof.Proof.GcnSpec
import Idealize.ShloMosaic.Lib.Pipeline.Value
import Idealize.ShloMosaic.Lib.ValueIdx
import Idealize.ShloMosaic.Lib.ValueLayout

set_option maxRecDepth 16384

noncomputable section

namespace Cert.KernelIdeal.Bias1

open Idealize.ShloMosaic Idealize.ShloMosaic.TcCoe Idealize.ShloMosaic.ValueIdx Idealize.SL.Sem
open Idealize.ShloMosaic.Pipeline (Dat)
open Cert.KernelIdeal Cert.KernelIdeal.Gen

/-- Bias and rectifier on the whole arrays at (p, q): the bias row is repeated down the rows, the zero is the same
    at every index. -/
theorem biasRelu_apply (s : FVec Ideal S50000x128 .f32) (b : FVec Ideal S128 .f32) (p : Fin 50000) (q : Fin 128) :
    Cert.GcnSpec.biasRelu (F := Ideal) s b (ix2 p q)
      = max (s (ix2 p q) + b (ix1 q)) (Scalar.ofBits (F := Ideal) .f32 0x00000000#32) := by
  unfold Cert.GcnSpec.biasRelu
  rw [maximumf_apply, addf_apply]
  rw [broadcastInDim_apply _ _ _ (ix2 p q) (ix2 (0 : Fin 1) q) (by intro a; match a with | ⟨0, _⟩ => rfl | ⟨1, _⟩ => rfl)]
  rw [broadcastInDim_apply _ _ _ (ix2 (0 : Fin 1) q) (ix1 q) (by intro a; match a with | ⟨0, _⟩ => rfl)]
  rw [broadcastInDim_apply _ _ _ (ix2 p q) ix0 (by intro a; exact a.elim0)]
  rfl

/-- The body's one stored value at (r, q). -/
theorem pay_apply (x0 : FVec Ideal S5000x128 .f32) (x1 : FVec Ideal S1x128 .f32) (r : Fin 5000) (q : Fin 128) :
    k1_pay1 (F := Ideal) x0 x1 (ix2 r q)
      = max (x0 (ix2 r q) + x1 (ix2 (0 : Fin 1) q)) (Scalar.ofBits (F := Ideal) .f32 0x00000000#32) := by
  show maximumf (addf (shapeCast S5000x128 x0 shapeCasts_S5000x128_S5000x128)
      (broadcastTo S5000x128 (shapeCast S1x128 x1 shapeCasts_S1x128_S1x128) broadcasts_S1x128_S5000x128))
      (broadcast S5000x128 (Scalar.ofBits (F := Ideal) .f32 0x00000000#32)) (ix2 r q) = _
  rw [shapeCast_self, shapeCast_self, maximumf_apply, addf_apply, broadcast_apply]
  rw [broadcastTo_1b_ab_apply x1 broadcasts_S1x128_S5000x128 r q]

theorem hz : (![0, 0] : Fin 2 → Nat) = fun _ => 0 := funext fun a => by fin_cases a <;> rfl

/-- The printed index maps over the ten grid points: the feature window and the output window sit at block row t,
    the bias window at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

variable (V : (c : Dev nD) → (b : Ref sig .tc) → Buf (Elt Ideal) ((c : Thread nD τ).loc b))

/-- What point t writes back is block t of bias-and-rectifier on the arrays the region finds, `b` being the row the
    region's 1 × 128 operand holds. -/
theorem flushed_eq (c : Dev nD) (b : FVec Ideal S128 .f32) (hb : ∀ q : Fin 128, V c main_v43 (ix2 (0 : Fin 1) q) = b (ix1 q)) (t : Fin cfg1.N) :
    (dat1 V c).flushed 2 t = ((cfg1.win 2).blk t).view.read (Elt Ideal) (Cert.GcnSpec.biasRelu (F := Ideal) (V c main_v42) b) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e00, e01, e10, e11, e20, e21, ht⟩ := idx_facts t
  funext j
  obtain ⟨r, q, rfl⟩ : ∃ (r : Fin 5000) (q : Fin 128), j = ix2 r q := ⟨j 0, j 1, eq_ix2 j⟩
  have hr : r.val < 5000 := r.isLt
  have e2 : ((cfg1.win 2).blk t).view.emb (ix2 r q) = ix2 (⟨t.val * 5000 + r.val, by omega⟩ : Fin 50000) q := by
    funext a; apply Fin.ext
    match a with
    | ⟨0, _⟩ => show win1_2.index t (0 : Fin 2) * 5000 + 1 * r.val = t.val * 5000 + r.val; omega
    | ⟨1, _⟩ => show win1_2.index t (1 : Fin 2) * 128 + 1 * q.val = q.val; omega
  have e0 : ((cfg1.win 0).blk t).view.emb (ix2 r q) = ix2 (⟨t.val * 5000 + r.val, by omega⟩ : Fin 50000) q := by
    funext a; apply Fin.ext
    match a with
    | ⟨0, _⟩ => show win1_0.index t (0 : Fin 2) * 5000 + 1 * r.val = t.val * 5000 + r.val; omega
    | ⟨1, _⟩ => show win1_0.index t (1 : Fin 2) * 128 + 1 * q.val = q.val; omega
  have e1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 128 + 1 * q.val = q.val; omega
  show k1_pay1 (iblk1 V c 0 t) (iblk1 V c 1 t) (ix2 r q)
    = Cert.GcnSpec.biasRelu (F := Ideal) (V c main_v42) b (((cfg1.win 2).blk t).view.emb (ix2 r q))
  rw [e2, biasRelu_apply]
  refine (pay_apply (iblk1 V c 0 t) (iblk1 V c 1 t) r q).trans ?_
  have h0 : iblk1 V c 0 t (ix2 r q) = V c main_v42 (ix2 (⟨t.val * 5000 + r.val, by omega⟩ : Fin 50000) q) :=
    congrArg (V c main_v42) e0
  have h1 : iblk1 V c 1 t (ix2 (0 : Fin 1) q) = b (ix1 q) := (congrArg (V c main_v43) e1).trans (hb q)
  rw [h0, h1]

/-- An index of the output array is in point t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

/-- Every row of the output is in the block of the point numbered by the row divided by 5000. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  obtain ⟨t, ht⟩ : ∃ t : Fin cfg1.N, t.val = (i 0).val / 5000 := ⟨⟨(i 0).val / 5000, by show (i 0).val / 5000 < grid1.N; omega⟩, rfl⟩
  obtain ⟨-, -, -, -, e20, e21, -⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The region's output array after the region: bias and rectifier on the arrays the region finds. -/
theorem final (c : Dev nD) (b : FVec Ideal S128 .f32) (hb : ∀ q : Fin 128, V c main_v43 (ix2 (0 : Fin 1) q) = b (ix1 q)) :
    (dat1 V c).arrAt 2 cfg1.N = Cert.GcnSpec.biasRelu (F := Ideal) (V c main_v42) b :=
  (dat1 V c).arrAt_eq_of_cover 2 _ (fun t _ => flushed_eq V c b hb t) cover

end Cert.KernelIdeal.Bias1

end
-- ==== Proof.RegionDense2.lean ====
/-
  The second product region as one whole array.

  The region's grid has ten points; at point t the kernel body loads rows 5000·t … 5000·t + 4999 of the first layer's output h
  (all 128 columns; a cast of the block to its own shape changes nothing) and the whole 128 × 128 weight matrix, multiplies them into a zero accumulator, and the result is
  written back to the same rows of the output. At the ideal values the entry (r, q) of a block is
  ∑ k, h(5000·t + r, k) · W(k, q), which is the entry (5000·t + r, q) of the product of the whole arrays; the ten
  blocks tile the 50000 rows, so the output array ends as that product.
-/
import proofs.«134097_j48936857370856_1_alg».proof.Proof.Gen.KernelIdeal.Frame
import proofs.«134097_j48936857370856_1_alg».proof.Proof.GcnSpec
import proofs.«134097_j48936857370856_1_alg».proof.Proof.LibMatmulPlain
import Idealize.ShloMosaic.Lib.Pipeline.Value
import Idealize.ShloMosaic.Lib.ValueIdx
import Idealize.ShloMosaic.Lib.StackMember

set_option maxRecDepth 16384

noncomputable section

namespace Cert.KernelIdeal.Dense2

open Idealize.ShloMosaic Idealize.ShloMosaic.TcCoe Idealize.ShloMosaic.ValueIdx Idealize.SL.Sem
open Idealize.ShloMosaic.Pipeline (Dat)
open Cert.KernelIdeal Cert.KernelIdeal.Gen

/-- The product of the whole arrays at (p, q): the sum over the contracted coordinate. -/
theorem dense_apply (X : FVec Ideal S50000x128 .f32) (W : FVec Ideal S128x128 .f32) (p : Fin 50000) (q : Fin 128) :
    Cert.GcnSpec.dense (F := Ideal) X W (ix2 p q) = ∑ k : Fin 128, X (ix2 p k) * W (ix2 k q) :=
  StackMember.dotGeneral_plain_apply none X W p q

/-- The body's one stored value at (r, q): the rounding of the operands to the narrower format is the identity on
    the ideal values, and the product into the zero accumulator is the plain sum. -/
theorem pay_apply (x0 : FVec Ideal S5000x128 .f32) (x1 : FVec Ideal S128x128 .f32) (r : Fin 5000) (q : Fin 128) :
    k2_pay1 (F := Ideal) x0 x1 (ix2 r q) = ∑ k : Fin 128, x0 (ix2 r k) * x1 (ix2 k q) := by
  show matmul dot_S5000x128_S128x128_S5000x128_1_0_0_1_n_n none
      (truncf .bf16 (shapeCast S5000x128 x0 shapeCasts_S5000x128_S5000x128) bitsLt_bf16_f32) (truncf .bf16 x1 bitsLt_bf16_f32)
      (constant (F := Ideal) S5000x128 .f32 0x00000000#32) (ix2 r q) = _
  rw [shapeCast_self]
  exact Cert.LibMatmulPlain.matmul_plain_zero_apply none (truncf .bf16 x0 bitsLt_bf16_f32) (truncf .bf16 x1 bitsLt_bf16_f32) r q

theorem hz : (![0, 0] : Fin 2 → Nat) = fun _ => 0 := funext fun a => by fin_cases a <;> rfl

/-- The printed index maps over the ten grid points: the window on the first layer's output and the output window sit at block row t,
    the weight window at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

variable (V : (c : Dev nD) → (b : Ref sig .tc) → Buf (Elt Ideal) ((c : Thread nD τ).loc b))

/-- What point t writes back is block t of the product of the arrays the region finds. -/
theorem flushed_eq (c : Dev nD) (t : Fin cfg2.N) :
    (dat2 V c).flushed 2 t = ((cfg2.win 2).blk t).view.read (Elt Ideal) (Cert.GcnSpec.dense (F := Ideal) (V c main_v44) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e00, e01, e10, e11, e20, e21, ht⟩ := idx_facts t
  funext j
  obtain ⟨r, q, rfl⟩ : ∃ (r : Fin 5000) (q : Fin 128), j = ix2 r q := ⟨j 0, j 1, eq_ix2 j⟩
  have hr : r.val < 5000 := r.isLt
  have e2 : ((cfg2.win 2).blk t).view.emb (ix2 r q) = ix2 (⟨t.val * 5000 + r.val, by omega⟩ : Fin 50000) q := by
    funext a; apply Fin.ext
    match a with
    | ⟨0, _⟩ => show win2_2.index t (0 : Fin 2) * 5000 + 1 * r.val = t.val * 5000 + r.val; omega
    | ⟨1, _⟩ => show win2_2.index t (1 : Fin 2) * 128 + 1 * q.val = q.val; omega
  show k2_pay1 (iblk2 V c 0 t) (iblk2 V c 1 t) (ix2 r q)
    = Cert.GcnSpec.dense (F := Ideal) (V c main_v44) (V c main_arg4) (((cfg2.win 2).blk t).view.emb (ix2 r q))
  rw [e2, dense_apply]
  refine (pay_apply (iblk2 V c 0 t) (iblk2 V c 1 t) r q).trans ?_
  refine Finset.sum_congr rfl fun k _ => ?_
  have e0 : ((cfg2.win 0).blk t).view.emb (ix2 r k) = ix2 (⟨t.val * 5000 + r.val, by omega⟩ : Fin 50000) k := by
    funext a; apply Fin.ext
    match a with
    | ⟨0, _⟩ => show win2_0.index t (0 : Fin 2) * 5000 + 1 * r.val = t.val * 5000 + r.val; omega
    | ⟨1, _⟩ => show win2_0.index t (1 : Fin 2) * 128 + 1 * k.val = k.val; omega
  have e1 : ((cfg2.win 1).blk t).view.emb (ix2 k q) = ix2 k q := by
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  have h0 : iblk2 V c 0 t (ix2 r k) = V c main_v44 (ix2 (⟨t.val * 5000 + r.val, by omega⟩ : Fin 50000) k) :=
    congrArg (V c main_v44) e0
  have h1 : iblk2 V c 1 t (ix2 k q) = V c main_arg4 (ix2 k q) := congrArg (V c main_arg4) e1
  rw [h0, h1]

/-- An index of the output array is in point t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v45).slice (win2_2.rect t)).set ↔ _
  rw [View.set_slice_whole, Rect.mem_set_unit]
  exact Iff.rfl

/-- Every row of the output is in the block of the point numbered by the row divided by 5000. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : grid2.N = 10 := N_2
  obtain ⟨t, ht⟩ : ∃ t : Fin cfg2.N, t.val = (i 0).val / 5000 := ⟨⟨(i 0).val / 5000, by show (i 0).val / 5000 < grid2.N; omega⟩, rfl⟩
  obtain ⟨-, -, -, -, e20, e21, -⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The region's output array after the region: the product of the two arrays the region finds. -/
theorem final (c : Dev nD) :
    (dat2 V c).arrAt 2 cfg2.N = Cert.GcnSpec.dense (F := Ideal) (V c main_v44) (V c main_arg4) :=
  (dat2 V c).arrAt_eq_of_cover 2 _ (fun t _ => flushed_eq V c t) cover

end Cert.KernelIdeal.Dense2

end
-- ==== Proof.RegionBias3.lean ====
/-
  The second bias-and-rectifier region as one whole array.

  The region's grid has ten points; at point t the kernel body loads rows 5000·t … 5000·t + 4999 of the aggregated
  features and the one bias row, adds the bias row to every loaded row, takes the maximum with zero, and the result is
  written back to the same rows of the output. Entry (r, q) of a block is max(s(5000·t + r, q) + b(q), 0), the entry
  (5000·t + r, q) of the same operation on the whole arrays; the ten blocks tile the 50000 rows.
-/
import proofs.«134097_j48936857370856_1_alg».proof.Proof.Gen.KernelIdeal.Frame
import proofs.«134097_j48936857370856_1_alg».proof.Proof.GcnSpec
import Idealize.ShloMosaic.Lib.Pipeline.Value
import Idealize.ShloMosaic.Lib.ValueIdx
import Idealize.ShloMosaic.Lib.ValueLayout

set_option maxRecDepth 16384

noncomputable section

namespace Cert.KernelIdeal.Bias3

open Idealize.ShloMosaic Idealize.ShloMosaic.TcCoe Idealize.ShloMosaic.ValueIdx Idealize.SL.Sem
open Idealize.ShloMosaic.Pipeline (Dat)
open Cert.KernelIdeal Cert.KernelIdeal.Gen

/-- Bias and rectifier on the whole arrays at (p, q): the bias row is repeated down the rows, the zero is the same
    at every index. -/
theorem biasRelu_apply (s : FVec Ideal S50000x128 .f32) (b : FVec Ideal S128 .f32) (p : Fin 50000) (q : Fin 128) :
    Cert.GcnSpec.biasRelu (F := Ideal) s b (ix2 p q)
      = max (s (ix2 p q) + b (ix1 q)) (Scalar.ofBits (F := Ideal) .f32 0x00000000#32) := by
  unfold Cert.GcnSpec.biasRelu
  rw [maximumf_apply, addf_apply]
  rw [broadcastInDim_apply _ _ _ (ix2 p q) (ix2 (0 : Fin 1) q) (by intro a; match a with | ⟨0, _⟩ => rfl | ⟨1, _⟩ => rfl)]
  rw [broadcastInDim_apply _ _ _ (ix2 (0 : Fin 1) q) (ix1 q) (by intro a; match a with | ⟨0, _⟩ => rfl)]
  rw [broadcastInDim_apply _ _ _ (ix2 p q) ix0 (by intro a; exact a.elim0)]
  rfl

/-- The body's one stored value at (r, q). -/
theorem pay_apply (x0 : FVec Ideal S5000x128 .f32) (x1 : FVec Ideal S1x128 .f32) (r : Fin 5000) (q : Fin 128) :
    k3_pay1 (F := Ideal) x0 x1 (ix2 r q)
      = max (x0 (ix2 r q) + x1 (ix2 (0 : Fin 1) q)) (Scalar.ofBits (F := Ideal) .f32 0x00000000#32) := by
  show maximumf (addf (shapeCast S5000x128 x0 shapeCasts_S5000x128_S5000x128)
      (broadcastTo S5000x128 (shapeCast S1x128 x1 shapeCasts_S1x128_S1x128) broadcasts_S1x128_S5000x128))
      (broadcast S5000x128 (Scalar.ofBits (F := Ideal) .f32 0x00000000#32)) (ix2 r q) = _
  rw [shapeCast_self, shapeCast_self, maximumf_apply, addf_apply, broadcast_apply]
  rw [broadcastTo_1b_ab_apply x1 broadcasts_S1x128_S5000x128 r q]

theorem hz : (![0, 0] : Fin 2 → Nat) = fun _ => 0 := funext fun a => by fin_cases a <;> rfl

/-- The printed index maps over the ten grid points: the feature window and the output window sit at block row t,
    the bias window at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 10 :=
  (by decide +kernel : ∀ t : Fin grid3.N, _)

variable (V : (c : Dev nD) → (b : Ref sig .tc) → Buf (Elt Ideal) ((c : Thread nD τ).loc b))

/-- What point t writes back is block t of bias-and-rectifier on the arrays the region finds, `b` being the row the
    region's 1 × 128 operand holds. -/
theorem flushed_eq (c : Dev nD) (b : FVec Ideal S128 .f32) (hb : ∀ q : Fin 128, V c main_v59 (ix2 (0 : Fin 1) q) = b (ix1 q)) (t : Fin cfg3.N) :
    (dat3 V c).flushed 2 t = ((cfg3.win 2).blk t).view.read (Elt Ideal) (Cert.GcnSpec.biasRelu (F := Ideal) (V c main_v58) b) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e00, e01, e10, e11, e20, e21, ht⟩ := idx_facts t
  funext j
  obtain ⟨r, q, rfl⟩ : ∃ (r : Fin 5000) (q : Fin 128), j = ix2 r q := ⟨j 0, j 1, eq_ix2 j⟩
  have hr : r.val < 5000 := r.isLt
  have e2 : ((cfg3.win 2).blk t).view.emb (ix2 r q) = ix2 (⟨t.val * 5000 + r.val, by omega⟩ : Fin 50000) q := by
    funext a; apply Fin.ext
    match a with
    | ⟨0, _⟩ => show win3_2.index t (0 : Fin 2) * 5000 + 1 * r.val = t.val * 5000 + r.val; omega
    | ⟨1, _⟩ => show win3_2.index t (1 : Fin 2) * 128 + 1 * q.val = q.val; omega
  have e0 : ((cfg3.win 0).blk t).view.emb (ix2 r q) = ix2 (⟨t.val * 5000 + r.val, by omega⟩ : Fin 50000) q := by
    funext a; apply Fin.ext
    match a with
    | ⟨0, _⟩ => show win3_0.index t (0 : Fin 2) * 5000 + 1 * r.val = t.val * 5000 + r.val; omega
    | ⟨1, _⟩ => show win3_0.index t (1 : Fin 2) * 128 + 1 * q.val = q.val; omega
  have e1 : ((cfg3.win 1).blk t).view.emb (ix2 (0 : Fin 1) q) = ix2 (0 : Fin 1) q := by
    funext a; apply Fin.ext
    match a with
    | ⟨0, _⟩ => show win3_1.index t (0 : Fin 2) * 1 + 1 * 0 = 0; omega
    | ⟨1, _⟩ => show win3_1.index t (1 : Fin 2) * 128 + 1 * q.val = q.val; omega
  show k3_pay1 (iblk3 V c 0 t) (iblk3 V c 1 t) (ix2 r q)
    = Cert.GcnSpec.biasRelu (F := Ideal) (V c main_v58) b (((cfg3.win 2).blk t).view.emb (ix2 r q))
  rw [e2, biasRelu_apply]
  refine (pay_apply (iblk3 V c 0 t) (iblk3 V c 1 t) r q).trans ?_
  have h0 : iblk3 V c 0 t (ix2 r q) = V c main_v58 (ix2 (⟨t.val * 5000 + r.val, by omega⟩ : Fin 50000) q) :=
    congrArg (V c main_v58) e0
  have h1 : iblk3 V c 1 t (ix2 (0 : Fin 1) q) = b (ix1 q) := (congrArg (V c main_v59) e1).trans (hb q)
  rw [h0, h1]

/-- An index of the output array is in point t's block iff each coordinate is in the block's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v60).slice (win3_2.rect t)).set ↔ _
  rw [View.set_slice_whole, Rect.mem_set_unit]
  exact Iff.rfl

/-- Every row of the output is in the block of the point numbered by the row divided by 5000. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : grid3.N = 10 := N_3
  obtain ⟨t, ht⟩ : ∃ t : Fin cfg3.N, t.val = (i 0).val / 5000 := ⟨⟨(i 0).val / 5000, by show (i 0).val / 5000 < grid3.N; omega⟩, rfl⟩
  obtain ⟨-, -, -, -, e20, e21, -⟩ := idx_facts t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The region's output array after the region: bias and rectifier on the arrays the region finds. -/
theorem final (c : Dev nD) (b : FVec Ideal S128 .f32) (hb : ∀ q : Fin 128, V c main_v59 (ix2 (0 : Fin 1) q) = b (ix1 q)) :
    (dat3 V c).arrAt 2 cfg3.N = Cert.GcnSpec.biasRelu (F := Ideal) (V c main_v58) b :=
  (dat3 V c).arrAt_eq_of_cover 2 _ (fun t _ => flushed_eq V c b hb t) cover

end Cert.KernelIdeal.Bias3

end
-- ==== Proof.Walk.lean ====
/-
  The idealized kernel's result buffer, read back through @main.

  The generated frame names every unscoped buffer's contents at the seven segment boundaries (`W1 … W7`). Going
  through them in order, at the ideal values:
    after the first host stretch the edge list's sources, destinations and weights are the specification's, and
      the arguments are as launched;
    the first product region leaves the product of the features with the first weight matrix;
    the second host stretch leaves its message passing (one opaque function of that product and of the three edge
      arrays) and the first bias as a 1 × 128 row;
    the first bias-and-rectifier region leaves the first layer's output;
    the second product region leaves its product with the second weight matrix;
    the third host stretch leaves the message passing of that and the second bias as a row;
    the last region leaves the second layer's output, in the result buffer.
  A buffer that a segment does not write is carried through it unchanged.
-/
import proofs.«134097_j48936857370856_1_alg».proof.Proof.Gen.KernelIdeal.Frame
import proofs.«134097_j48936857370856_1_alg».proof.Proof.GcnSpec
import proofs.«134097_j48936857370856_1_alg».proof.Proof.RegionDense0
import proofs.«134097_j48936857370856_1_alg».proof.Proof.RegionBias1
import proofs.«134097_j48936857370856_1_alg».proof.Proof.RegionDense2
import proofs.«134097_j48936857370856_1_alg».proof.Proof.RegionBias3
import Idealize.ShloMosaic.Lib.StableHlo.Run
import Idealize.ShloMosaic.Lib.ValueLayout

set_option maxRecDepth 16384

noncomputable section

namespace Cert.KernelIdeal.Walk

open Idealize.ShloMosaic Idealize.ShloMosaic.TcCoe Idealize.ShloMosaic.ValueIdx Idealize.SL.Sem Idealize.ShloMosaic.StableHlo
open Cert.KernelIdeal Cert.KernelIdeal.Gen Cert.GcnSpec

variable (m : (ℓ : Loc nD τ sig) → Buf (Elt Ideal) ℓ) (ρ : Dev nD → PrngReg) (c : Dev nD)

/-! ## After the first host stretch -/

theorem W1_arg0 : W1 m ρ c (Proc.devRef .tc main_arg0) = m ((c : Thread nD τ).loc main_arg0) := by
  show StableHlo.after hostOps0 (W0 m ρ c) (Proc.devRef .tc main_arg0) = _
  after_results_simp <;> rfl
theorem W1_arg2 : W1 m ρ c (Proc.devRef .tc main_arg2) = m ((c : Thread nD τ).loc main_arg2) := by
  show StableHlo.after hostOps0 (W0 m ρ c) (Proc.devRef .tc main_arg2) = _
  after_results_simp <;> rfl
theorem W1_arg3 : W1 m ρ c (Proc.devRef .tc main_arg3) = m ((c : Thread nD τ).loc main_arg3) := by
  show StableHlo.after hostOps0 (W0 m ρ c) (Proc.devRef .tc main_arg3) = _
  after_results_simp <;> rfl
theorem W1_arg4 : W1 m ρ c (Proc.devRef .tc main_arg4) = m ((c : Thread nD τ).loc main_arg4) := by
  show StableHlo.after hostOps0 (W0 m ρ c) (Proc.devRef .tc main_arg4) = _
  after_results_simp <;> rfl
theorem W1_arg5 : W1 m ρ c (Proc.devRef .tc main_arg5) = m ((c : Thread nD τ).loc main_arg5) := by
  show StableHlo.after hostOps0 (W0 m ρ c) (Proc.devRef .tc main_arg5) = _
  after_results_simp <;> rfl

/-- The sources with the self-loops. -/
theorem W1_src : W1 m ρ c (Proc.devRef .tc main_v3) = srcOf (F := Ideal) (m ((c : Thread nD τ).loc main_arg1)) := by
  show StableHlo.after hostOps0 (W0 m ρ c) (Proc.devRef .tc main_v3) = _
  after_results_simp <;> rfl
/-- The destinations with the self-loops. -/
theorem W1_dst : W1 m ρ c (Proc.devRef .tc main_v6) = dstOf (F := Ideal) (m ((c : Thread nD τ).loc main_arg1)) := by
  show StableHlo.after hostOps0 (W0 m ρ c) (Proc.devRef .tc main_v6) = _
  after_results_simp <;> rfl
/-- The edges' weights. -/
theorem W1_norm : W1 m ρ c (Proc.devRef .tc main_v28) = normOf (F := Ideal) (m ((c : Thread nD τ).loc main_arg1)) := by
  show StableHlo.after hostOps0 (W0 m ρ c) (Proc.devRef .tc main_v28) = _
  after_results_simp <;> rfl

/-! ## After the first product region -/

theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_src : W2 m ρ c (Proc.devRef .tc main_v3) = srcOf (F := Ideal) (m ((c : Thread nD τ).loc main_arg1)) :=
  (W2_of_ne m ρ c main_v3 (by decide)).trans (W1_src m ρ c)
theorem W2_dst : W2 m ρ c (Proc.devRef .tc main_v6) = dstOf (F := Ideal) (m ((c : Thread nD τ).loc main_arg1)) :=
  (W2_of_ne m ρ c main_v6 (by decide)).trans (W1_dst m ρ c)
theorem W2_norm : W2 m ρ c (Proc.devRef .tc main_v28) = normOf (F := Ideal) (m ((c : Thread nD τ).loc main_arg1)) :=
  (W2_of_ne m ρ c main_v28 (by decide)).trans (W1_norm m ρ c)

/-- The product of the features with the first weight matrix. -/
theorem W2_prod : W2 m ρ c (Proc.devRef .tc main_v29)
    = dense (F := Ideal) (m ((c : Thread nD τ).loc main_arg0)) (m ((c : Thread nD τ).loc main_arg2)) := by
  refine (W2_arr m ρ c 2).trans ((Dense0.final (V1 m ρ) c).trans ?_)
  show dense (F := Ideal) (W1 m ρ c (Proc.devRef .tc main_arg0)) (W1 m ρ c (Proc.devRef .tc main_arg2)) = _
  rw [W1_arg0, W1_arg2]

/-! ## After the second host stretch -/

theorem W3_arg4 : W3 m ρ c (Proc.devRef .tc main_arg4) = m ((c : Thread nD τ).loc main_arg4) := by
  refine Eq.trans ?_ (W2_arg4 m ρ c)
  show StableHlo.after hostOps1 (W2 m ρ c) (Proc.devRef .tc main_arg4) = _
  after_results_simp <;> rfl
theorem W3_arg5 : W3 m ρ c (Proc.devRef .tc main_arg5) = m ((c : Thread nD τ).loc main_arg5) := by
  refine Eq.trans ?_ (W2_arg5 m ρ c)
  show StableHlo.after hostOps1 (W2 m ρ c) (Proc.devRef .tc main_arg5) = _
  after_results_simp <;> rfl
theorem W3_src : W3 m ρ c (Proc.devRef .tc main_v3) = srcOf (F := Ideal) (m ((c : Thread nD τ).loc main_arg1)) := by
  refine Eq.trans ?_ (W2_src m ρ c)
  show StableHlo.after hostOps1 (W2 m ρ c) (Proc.devRef .tc main_v3) = _
  after_results_simp <;> rfl
theorem W3_dst : W3 m ρ c (Proc.devRef .tc main_v6) = dstOf (F := Ideal) (m ((c : Thread nD τ).loc main_arg1)) := by
  refine Eq.trans ?_ (W2_dst m ρ c)
  show StableHlo.after hostOps1 (W2 m ρ c) (Proc.devRef .tc main_v6) = _
  after_results_simp <;> rfl
theorem W3_norm : W3 m ρ c (Proc.devRef .tc main_v28) = normOf (F := Ideal) (m ((c : Thread nD τ).loc main_arg1)) := by
  refine Eq.trans ?_ (W2_norm m ρ c)
  show StableHlo.after hostOps1 (W2 m ρ c) (Proc.devRef .tc main_v28) = _
  after_results_simp <;> rfl

/-- The stretch's message passing, over the buffers it reads. -/
theorem W3_agg_raw : W3 m ρ c (Proc.devRef .tc main_v42)
    = aggWith (F := Ideal) (W2 m ρ c (Proc.devRef .tc main_v29)) (W2 m ρ c (Proc.devRef .tc main_v3))
        (W2 m ρ c (Proc.devRef .tc main_v6)) (W2 m ρ c (Proc.devRef .tc main_v28)) := by
  show StableHlo.after hostOps1 (W2 m ρ c) (Proc.devRef .tc main_v42) = _
  after_results_simp <;> rfl

/-- The message passing of the first product. -/
theorem W3_agg : W3 m ρ c (Proc.devRef .tc main_v42)
    = aggOf (F := Ideal) (dense (F := Ideal) (m ((c : Thread nD τ).loc main_arg0)) (m ((c : Thread nD τ).loc main_arg2))) (m ((c : Thread nD τ).loc main_arg1)) := by
  rw [W3_agg_raw, W2_prod, W2_src, W2_dst, W2_norm]; rfl

/-- The first bias as a 1 × 128 row. -/
theorem W3_bias (q : Fin 128) : W3 m ρ c (Proc.devRef .tc main_v43) (ix2 (0 : Fin 1) q) = m ((c : Thread nD τ).loc main_arg3) (ix1 q) := by
  have e : W3 m ρ c (Proc.devRef .tc main_v43) = shapeCast S1x128 (W2 m ρ c (Proc.devRef .tc main_arg3)) shapeCasts_S128_S1x128 := by
    show StableHlo.after hostOps1 (W2 m ρ c) (Proc.devRef .tc main_v43) = _
    after_results_simp <;> rfl
  rw [e, W2_arg3]
  exact shapeCast_a_1a_apply _ _ (0 : Fin 1) q

/-! ## After the first bias-and-rectifier region -/

theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)
theorem W4_src : W4 m ρ c (Proc.devRef .tc main_v3) = srcOf (F := Ideal) (m ((c : Thread nD τ).loc main_arg1)) :=
  (W4_of_ne m ρ c main_v3 (by decide)).trans (W3_src m ρ c)
theorem W4_dst : W4 m ρ c (Proc.devRef .tc main_v6) = dstOf (F := Ideal) (m ((c : Thread nD τ).loc main_arg1)) :=
  (W4_of_ne m ρ c main_v6 (by decide)).trans (W3_dst m ρ c)
theorem W4_norm : W4 m ρ c (Proc.devRef .tc main_v28) = normOf (F := Ideal) (m ((c : Thread nD τ).loc main_arg1)) :=
  (W4_of_ne m ρ c main_v28 (by decide)).trans (W3_norm m ρ c)

/-- The first layer's output. -/
theorem W4_layer : W4 m ρ c (Proc.devRef .tc main_v44)
    = layerOf (F := Ideal) (m ((c : Thread nD τ).loc main_arg0)) (m ((c : Thread nD τ).loc main_arg2)) (m ((c : Thread nD τ).loc main_arg3)) (m ((c : Thread nD τ).loc main_arg1)) := by
  refine (W4_arr m ρ c 2).trans ((Bias1.final (V3 m ρ) c (m ((c : Thread nD τ).loc main_arg3)) (W3_bias m ρ c)).trans ?_)
  show biasRelu (F := Ideal) (W3 m ρ c (Proc.devRef .tc main_v42)) _ = _
  rw [W3_agg]; rfl

/-! ## After the second product region -/

theorem W5_arg5 : W5 m ρ c (Proc.devRef .tc main_arg5) = m ((c : Thread nD τ).loc main_arg5) :=
  (W5_of_ne m ρ c main_arg5 (by decide)).trans (W4_arg5 m ρ c)
theorem W5_src : W5 m ρ c (Proc.devRef .tc main_v3) = srcOf (F := Ideal) (m ((c : Thread nD τ).loc main_arg1)) :=
  (W5_of_ne m ρ c main_v3 (by decide)).trans (W4_src m ρ c)
theorem W5_dst : W5 m ρ c (Proc.devRef .tc main_v6) = dstOf (F := Ideal) (m ((c : Thread nD τ).loc main_arg1)) :=
  (W5_of_ne m ρ c main_v6 (by decide)).trans (W4_dst m ρ c)
theorem W5_norm : W5 m ρ c (Proc.devRef .tc main_v28) = normOf (F := Ideal) (m ((c : Thread nD τ).loc main_arg1)) :=
  (W5_of_ne m ρ c main_v28 (by decide)).trans (W4_norm m ρ c)

/-- The product of the first layer's output with the second weight matrix. -/
theorem W5_prod : W5 m ρ c (Proc.devRef .tc main_v45)
    = dense (F := Ideal) (layerOf (F := Ideal) (m ((c : Thread nD τ).loc main_arg0)) (m ((c : Thread nD τ).loc main_arg2)) (m ((c : Thread nD τ).loc main_arg3)) (m ((c : Thread nD τ).loc main_arg1)))
        (m ((c : Thread nD τ).loc main_arg4)) := by
  refine (W5_arr m ρ c 2).trans ((Dense2.final (V4 m ρ) c).trans ?_)
  show dense (F := Ideal) (W4 m ρ c (Proc.devRef .tc main_v44)) (W4 m ρ c (Proc.devRef .tc main_arg4)) = _
  rw [W4_layer, W4_arg4]

/-! ## After the third host stretch -/

/-- The stretch's message passing, over the buffers it reads. -/
theorem W6_agg_raw : W6 m ρ c (Proc.devRef .tc main_v58)
    = aggWith (F := Ideal) (W5 m ρ c (Proc.devRef .tc main_v45)) (W5 m ρ c (Proc.devRef .tc main_v3))
        (W5 m ρ c (Proc.devRef .tc main_v6)) (W5 m ρ c (Proc.devRef .tc main_v28)) := by
  show StableHlo.after hostOps3 (W5 m ρ c) (Proc.devRef .tc main_v58) = _
  after_results_simp <;> rfl

/-- The second bias as a 1 × 128 row. -/
theorem W6_bias (q : Fin 128) : W6 m ρ c (Proc.devRef .tc main_v59) (ix2 (0 : Fin 1) q) = m ((c : Thread nD τ).loc main_arg5) (ix1 q) := by
  have e : W6 m ρ c (Proc.devRef .tc main_v59) = shapeCast S1x128 (W5 m ρ c (Proc.devRef .tc main_arg5)) shapeCasts_S128_S1x128 := by
    show StableHlo.after hostOps3 (W5 m ρ c) (Proc.devRef .tc main_v59) = _
    after_results_simp <;> rfl
  rw [e, W5_arg5]
  exact shapeCast_a_1a_apply _ _ (0 : Fin 1) q

/-! ## After the last region: the result -/

/-- The result buffer ends holding the two layers of the arguments. -/
theorem W7_result : W7 m ρ c (Proc.devRef .tc main_v60)
    = gcn2 (F := Ideal) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) := by
  refine (W7_arr m ρ c 2).trans ((Bias3.final (V6 m ρ) c (m ((c : Thread nD τ).loc main_arg5)) (W6_bias m ρ c)).trans ?_)
  show biasRelu (F := Ideal) (W6 m ρ c (Proc.devRef .tc main_v58)) _ = _
  rw [W6_agg_raw, W5_prod, W5_src, W5_dst, W5_norm]; rfl

end Cert.KernelIdeal.Walk

end
-- ==== Proof.RefValue.lean ====
/-
  The reference's result term is the specification.

  The generated run of the reference states its result as one composed term of the argument arrays: every operation
  of the reference applied to its operands' terms, with nothing shared. The specification is that same term cut into
  named pieces (sources, destinations, weights, message passing, bias and rectifier, product, layer), so unfolding the
  names gives the term back.
-/
import proofs.«134097_j48936857370856_1_alg».proof.Proof.Gen.ReferenceIdeal.Run
import proofs.«134097_j48936857370856_1_alg».proof.Proof.GcnSpec
import Idealize.ShloMosaic.PureOps.Ideal

noncomputable section

namespace Cert.ReferenceIdeal.RefValue

open Idealize.ShloMosaic Idealize.ShloMosaic.TcCoe Idealize.SL.Sem
open Cert.ReferenceIdeal Cert.GcnSpec

set_option maxRecDepth 8192 in
/-- The reference's result is the two layers of its arguments. -/
theorem result_eq (m : (ℓ : Loc nD τ sig) → Buf (Elt Ideal) ℓ) (c : Dev nD) :
    Cert.ReferenceIdeal.Value.res_main_v64 (F := Ideal) m c
      = gcn2 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.Value.res_main_v64
  rfl

end Cert.ReferenceIdeal.RefValue

end
-- ==== Proof.lean ====
/-
  Two graph-convolution layers, tiled kernel against the plain reference: the certificate's five claims.

  Both programs compute, from node features x (50000 × 128), an edge list (2 × 800000), two weight matrices and two
  biases, the function

      layer(layer(x, W1, b1), W2, b2),   layer(h, W, b) = max( A(h · W) + b, 0 ),

  where A is message passing over the edge list with self-loops added: gather the rows at the edges' sources, scale
  each by rsqrt(max(deg, 1)) at its source times the same at its destination, and sum into the edges' destinations.
  The reference is that, operation by operation. The kernel program runs the same host operations for the edge
  arrays and for A, and replaces the two dense steps of each layer by kernel regions over ten blocks of 5000 rows:
  the product h · W with both operands rounded to a narrower format first (the identity on the ideal values) and
  accumulated from zero, and max(s + b, 0) with the bias held as a 1 × 128 row.

  At the ideal values each product region's output array is the product of the whole arrays, and each bias region's
  output array is max(s + b, 0) on the whole arrays, because a block of rows of either is the same operation on
  those rows and the ten blocks tile the rows. A is carried as one function of its operands and never opened. So the
  result buffer of the kernel program and the result of the reference are the same term of the arguments. No
  algebraic law beyond reading a product as the sum over the contracted index is used, and the finiteness of the
  inputs is not needed.

  The three frames are the generated ones (the reference's is its generated run with the result dropped); the
  idealization rewrote no operation, so nothing is owed for it.
-/
import proofs.«134097_j48936857370856_1_alg».proof.Defs
import proofs.«134097_j48936857370856_1_alg».proof.Proof.Gen.Kernel
import proofs.«134097_j48936857370856_1_alg».proof.Proof.Gen.Kernel.Skeleton
import proofs.«134097_j48936857370856_1_alg».proof.Proof.Gen.Kernel.Launch
import proofs.«134097_j48936857370856_1_alg».proof.Proof.Gen.Kernel.Points
import proofs.«134097_j48936857370856_1_alg».proof.Proof.Gen.Kernel.Frame
import proofs.«134097_j48936857370856_1_alg».proof.Proof.Gen.KernelIdeal
import proofs.«134097_j48936857370856_1_alg».proof.Proof.Gen.KernelIdeal.Skeleton
import proofs.«134097_j48936857370856_1_alg».proof.Proof.Gen.KernelIdeal.Launch
import proofs.«134097_j48936857370856_1_alg».proof.Proof.Gen.KernelIdeal.Points
import proofs.«134097_j48936857370856_1_alg».proof.Proof.Gen.KernelIdeal.Frame
import proofs.«134097_j48936857370856_1_alg».proof.Proof.Gen.ReferenceIdeal
import proofs.«134097_j48936857370856_1_alg».proof.Proof.Gen.ReferenceIdeal.Run
import proofs.«134097_j48936857370856_1_alg».proof.Proof.Gen.Pre_finite_inputs
import proofs.«134097_j48936857370856_1_alg».proof.Proof.GcnSpec
import proofs.«134097_j48936857370856_1_alg».proof.Proof.KernelRun
import proofs.«134097_j48936857370856_1_alg».proof.Proof.Walk
import proofs.«134097_j48936857370856_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the two layers of the arguments in their result:
    the kernel program by its run read back through @main, the reference by its run's composed term. -/
theorem algebraic : Cert.algebraic_KernelIdeal_ReferenceIdeal := by
  intro m ρ m' ρ' _ hagree
  refine ⟨fun c => Cert.GcnSpec.gcn2 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Walk.W7_result m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
